-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_

variable [Facts]

def fn_part2 {F : FTy → Type} [FloatOps F] (main_arg6 : FVec F S128 .f32) (main_arg8 : FVec F S128x128 .f32) (main_arg9 : FVec F S40x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_cst_16 : FVec F S_ .f32 := constant S_ .f32 0x00000000#32
  let main_v44 : FVec F S128 .f32 := broadcastInDim S128 ![] bcast_S_S128 main_cst_16
  let main_v45 : IVec S128 1 := cmpf .oge main_arg6 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v43 main_v46
  main_v47

def fn_part1 {F : FTy → Type} [FloatOps F] (main_arg5 : FVec F S128 .f32) (main_arg6 : FVec F S128 .f32) (main_arg7 : FVec F S128x128 .f32) (main_arg8 : FVec F S128x128 .f32) (main_arg9 : FVec F S40x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg6 main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128x128 .f32) (main_arg8 : FVec F S128x128 .f32) (main_arg9 : FVec F S40x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S128x40 : Shape := ⟨2, ![128, 40]⟩
abbrev S50000x40 : Shape := ⟨2, ![50000, 40]⟩

abbrev nBuf : Space → Nat
  | .hbm => 67
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S40x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .bf16⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .bf16⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S50000x128, .f32⟩
  | .hbm, ⟨43, _⟩ => ⟨S50000x128, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .bf16⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S128x128, .f32⟩
  | .hbm, ⟨59, _⟩ => ⟨S128x128, .bf16⟩
  | .hbm, ⟨60, _⟩ => ⟨S128x40, .f32⟩
  | .hbm, ⟨61, _⟩ => ⟨S128x40, .bf16⟩
  | .hbm, ⟨62, _⟩ => ⟨S_, .i32⟩
  | .hbm, ⟨63, _⟩ => ⟨S_, .bf16⟩
  | .hbm, ⟨64, _⟩ => ⟨S128x128, .bf16⟩
  | .hbm, ⟨65, _⟩ => ⟨S50000x128, .f32⟩
  | .hbm, ⟨66, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_call0_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  pads_S128x40_S128x128_000_0880 : S128x40.Pads (![0, 0] : Fin 2 → Nat) ![0, 88] ![0, 0] S128x128
  h_S_ : 0 < S_.numel
  slices_S50000x128_S50000x40_0_0 : S50000x128.Slices ![0, 0] S50000x40
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x40 : Shape := ⟨2, ![128, 40]⟩
abbrev S50000x40 : Shape := ⟨2, ![50000, 40]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S40x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S128x40, .f32⟩
  | .hbm, ⟨72, _⟩ => ⟨S50000x40, .f32⟩
  | .hbm, ⟨73, _⟩ => ⟨S_, .f32⟩
  | .hbm, ⟨74, _⟩ => ⟨S50000x40, .f32⟩
  | .hbm, ⟨75, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call3_cst : Ref sig .tc := ⟨.hbm, 73, rfl⟩
abbrev main_call3_v0 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S40x128_S128x40_1_0 : S40x128.Transposes [1, 0] S128x40
  bcast_S_S50000x40 : S_.BroadcastsInDim S50000x40 (![] : Fin 0 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The idealized kernel program's run with its result named.

  The program is six segments: host operations, the first layer's pipelined region, two stretches of host
  operations, the second layer's region, and one last host operation. Every weakly fair execution ends with every
  buffer that lives across segments at the contents obtained by folding the segments over the launch memory: a
  host stretch applies its operations' functions, a region leaves each of its arrays at what its write-backs
  leave. In particular the result buffer ends at that fold's value, and each argument at its launch contents.
-/
import proofs.«179697_j90056874262918_2_alg».proof.Proof.Gen.KernelIdeal.Frame

set_option maxRecDepth 16384

noncomputable section

namespace Cert.KernelIdeal.GinRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the value the segments'
    fold gives it and every argument array as launched. -/
theorem run_value : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.GinRun

end
-- ==== Proof.Spec.lean ====
/-
  The two graph-convolution layers, one output row at a time, as functions on the extended reals.

  Each layer takes a row `h` of 128 numbers (a node's own features plus the sum of its in-neighbours' features),
  multiplies it by a 128 x 128 matrix, applies an affine map per column (first layer only: the folded batch
  normalisation), clamps at zero, multiplies by a second matrix and clamps at zero again. The matrices are
  indexed as they are contracted: `wa (l, k)` meets entry `l` of the row, `wb (k, q)` produces column `q`.

  The first layer is written in the two arrangements that the two programs use for the batch normalisation:
  `(y - mean) * s + beta` and `y * s + (beta - mean * s)`. They agree when `mean`, `s` and `beta` are real
  numbers (`affine_arrangements`); `y` may be any extended real.
-/
import Idealize.ShloMosaic.PureOps.Ideal
import Idealize.ShloMosaic.Lib.ValueIdx

noncomputable section

namespace Cert.Gin

open Idealize.ShloMosaic Idealize.ShloMosaic.ValueIdx

/-- A matrix of extended reals with literal extents. -/
abbrev Mat (a b : Nat) := (⟨2, ![a, b]⟩ : Shape).Idx → EReal

/-- Column `q` of the first layer's row, the normalisation as a scale `sc` and a shift `sh` per column. -/
def row1K (h : Fin 128 → EReal) (wa : Mat 128 128) (sc sh : Fin 128 → EReal) (wb : Mat 128 128) (q : Fin 128) : EReal :=
  max (∑ k : Fin 128, max ((∑ l : Fin 128, h l * wa (ix2 l k)) * sc k + sh k) 0 * wb (ix2 k q)) 0

/-- Column `q` of the first layer's row, the normalisation as subtract-the-mean, scale, add `beta`. -/
def row1R (h : Fin 128 → EReal) (wa : Mat 128 128) (mean s beta : Fin 128 → EReal) (wb : Mat 128 128) (q : Fin 128) : EReal :=
  max (∑ k : Fin 128, max (((∑ l : Fin 128, h l * wa (ix2 l k)) - mean k) * s k + beta k) 0 * wb (ix2 k q)) 0

/-- Column `q` of the second layer's row; the second matrix has `c` columns. -/
def row2 {c : Nat} (h : Fin 128 → EReal) (wa : Mat 128 128) (wb : Mat 128 c) (q : Fin c) : EReal :=
  max (∑ k : Fin 128, max (∑ l : Fin 128, h l * wa (ix2 l k)) 0 * wb (ix2 k q)) 0

/-- `(y - b) * s + c = y * s + (c - b * s)` for real `b`, `s`, `c` and ANY extended real `y`: at an infinite `y`
    both sides are the infinity of the sign of `s` (or `c`, when `s = 0`). -/
theorem affine_arrangement (y : EReal) (b s c : ℝ) :
    (y - (b : EReal)) * (s : EReal) + (c : EReal) = y * (s : EReal) + ((c : EReal) - (b : EReal) * (s : EReal)) := by
  induction y using EReal.rec with
  | coe y =>
    rw [← EReal.coe_sub, ← EReal.coe_mul, ← EReal.coe_add, ← EReal.coe_mul, ← EReal.coe_mul, ← EReal.coe_sub, ← EReal.coe_add]
    congr 1; ring
  | bot =>
    rw [← EReal.coe_mul, ← EReal.coe_sub, EReal.bot_sub]
    rcases lt_trichotomy s 0 with hs | hs | hs
    · rw [EReal.bot_mul_coe_of_neg hs, EReal.top_add_coe, EReal.top_add_coe]
    · subst hs; simp
    · rw [EReal.bot_mul_coe_of_pos hs, EReal.bot_add, EReal.bot_add]
  | top =>
    rw [← EReal.coe_mul, ← EReal.coe_sub, EReal.top_sub_coe]
    rcases lt_trichotomy s 0 with hs | hs | hs
    · rw [EReal.top_mul_coe_of_neg hs, EReal.bot_add, EReal.bot_add]
    · subst hs; simp
    · rw [EReal.top_mul_coe_of_pos hs, EReal.top_add_coe, EReal.top_add_coe]

/-- The two arrangements of the first layer agree when the normalisation's three vectors are real. -/
theorem row1R_eq_row1K (h : Fin 128 → EReal) (wa : Mat 128 128) (mean s beta : Fin 128 → EReal) (wb : Mat 128 128)
    (hm : ∀ k, ∃ r : ℝ, mean k = (r : EReal)) (hs : ∀ k, ∃ r : ℝ, s k = (r : EReal)) (hb : ∀ k, ∃ r : ℝ, beta k = (r : EReal))
    (q : Fin 128) :
    row1R h wa mean s beta wb q = row1K h wa s (fun k => beta k - mean k * s k) wb q := by
  unfold row1R row1K
  congr 1
  refine Finset.sum_congr rfl fun k _ => ?_
  obtain ⟨rm, hrm⟩ := hm k
  obtain ⟨rs, hrs⟩ := hs k
  obtain ⟨rb, hrb⟩ := hb k
  show max (((∑ l : Fin 128, h l * wa (ix2 l k)) - mean k) * s k + beta k) 0 * wb (ix2 k q)
    = max ((∑ l : Fin 128, h l * wa (ix2 l k)) * s k + (beta k - mean k * s k)) 0 * wb (ix2 k q)
  rw [hrm, hrs, hrb, affine_arrangement]

end Cert.Gin

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.Payload.lean ====
/-
  The two layers' stored values, read at an index, on the extended reals.

  Each layer's kernel body stores ONE array: the sum of two 5000 x 128 input blocks, multiplied by a 128 x 128 matrix,
  (first layer only) scaled and shifted column by column, clamped at zero, multiplied by a second 128 x 128 matrix and
  clamped at zero again. On the extended reals a change of number format is the identity and a cast to the same shape
  moves nothing, so entry (p, q) of the stored array is column q of the layer's row function applied to the sum of the
  two inputs' rows p. The matrix products are read at an index as sums over the contracted coordinate; the one-row
  arrays of scales and shifts, broadcast down the 5000 rows, are read at (p, k) as their entry (0, k).
-/
import proofs.«179697_j90056874262918_2_alg».proof.Proof.Gen.KernelIdeal.Skeleton
import proofs.«179697_j90056874262918_2_alg».proof.Proof.Spec
import proofs.«179697_j90056874262918_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.Gin

open Idealize.ShloMosaic Idealize.ShloMosaic.ValueIdx Cert.KernelIdeal

/-! ## The matrix product's dimension numbers, coordinate by coordinate

The product contracts the left operand's axis 1 with the right operand's axis 0; the result's row is the left
operand's row and the result's column is the right operand's column. -/

/-- The left operand's row is the result's row. -/
theorem dot_lhs_row (j : S5000x128.Idx) (x : dot_S5000x128_S128x128_S5000x128_1_0_0_1_n_n.contr.Idx) :
    (dot_S5000x128_S128x128_S5000x128_1_0_0_1_n_n.lhsIdx j x 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contracted coordinate. -/
theorem dot_lhs_col (j : S5000x128.Idx) (x : dot_S5000x128_S128x128_S5000x128_1_0_0_1_n_n.contr.Idx) :
    (dot_S5000x128_S128x128_S5000x128_1_0_0_1_n_n.lhsIdx j x 1).val = (x ⟨0, by decide⟩).val :=
  dot_S5000x128_S128x128_S5000x128_1_0_0_1_n_n.lhsIdx_val_of_single rfl j x

/-- The right operand's row is the contracted coordinate. -/
theorem dot_rhs_row (j : S5000x128.Idx) (x : dot_S5000x128_S128x128_S5000x128_1_0_0_1_n_n.contr.Idx) :
    (dot_S5000x128_S128x128_S5000x128_1_0_0_1_n_n.rhsIdx j x 0).val = (x ⟨0, by decide⟩).val :=
  dot_S5000x128_S128x128_S5000x128_1_0_0_1_n_n.rhsIdx_val_of_single rfl j x

/-- The right operand's column is the result's column. -/
theorem dot_rhs_col (j : S5000x128.Idx) (x : dot_S5000x128_S128x128_S5000x128_1_0_0_1_n_n.contr.Idx) :
    (dot_S5000x128_S128x128_S5000x128_1_0_0_1_n_n.rhsIdx j x 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 x 128 by 128 x 128 product into the zero accumulator, read at (p, c): row p of the left operand against
    column c of the right one. -/
theorem matmul_block_apply (lhs : FVec Ideal S5000x128 .bf16) (rhs : FVec Ideal S128x128 .bf16) (p : Fin 5000) (c : Fin 128) :
    matmul dot_S5000x128_S128x128_S5000x128_1_0_0_1_n_n none lhs rhs (constant (F := Ideal) S5000x128 .f32 0x00000000#32) (ix2 p c)
      = ∑ x : Fin 128, lhs (ix2 p x) * rhs (ix2 x c) :=
  Cert.LibRowOps.matmul_zero_apply dot_S5000x128_S128x128_S5000x128_1_0_0_1_n_n none lhs rhs rfl rfl dot_lhs_row dot_lhs_col dot_rhs_row dot_rhs_col p c

/-! ## The second layer's stored value

The sum of the two input blocks, a matrix product, a clamp at zero, a second matrix product and a second clamp: the
format changes in between are the identity on the extended reals, and a cast to the same shape moves nothing. -/

/-- The second layer's payload at (p, q) is column q of the layer's row for the sum of the two inputs' rows p. -/
theorem pay1_apply (x0 x2 : Vec Ideal S5000x128 .f32) (x6 x12 : Vec Ideal S128x128 .bf16) (p : Fin 5000) (q : Fin 128) :
    Cert.KernelIdeal.Gen.k1_pay1 (F := Ideal) x0 x2 x6 x12 (ix2 p q)
      = row2 (fun l => x0 (ix2 p l) + x2 (ix2 p l)) x6 x12 q := by
  unfold Gen.k1_pay1 row2
  simp only [shapeCast_self]
  refine (maximumf_apply _ _ _).trans ?_
  refine congrArg₂ max ?_ Ideal.ofBits_zero_f32
  refine (matmul_block_apply _ x12 p q).trans ?_
  refine Finset.sum_congr rfl fun k _ => ?_
  refine congrArg (fun y => y * x12 (ix2 k q)) ?_
  refine (truncf_apply (φ := .f32) (ψ := .bf16) _ Gen.bitsLt_bf16_f32 (ix2 p k)).trans ?_
  refine (maximumf_apply _ _ _).trans ?_
  refine congrArg₂ max ?_ Ideal.ofBits_zero_f32
  exact matmul_block_apply _ x6 p k

/-! ## The first layer's stored value

As the second layer's, with one step more between the first product and the first clamp: the product is multiplied
by a one-row array broadcast down the rows and another such row is added, so that entry (p, k) meets the rows'
entries (0, k). -/

/-- The first layer's payload at (p, q) is column q of the layer's row for the sum of the two inputs' rows p, the
    scale and the shift being the one rows of the two one-row arrays. -/
theorem pay0_apply (x0 x1 : Vec Ideal S5000x128 .f32) (x2 : Vec Ideal S128x128 .bf16) (x3 x4 : Vec Ideal S1x128 .f32)
    (x5 : Vec Ideal S128x128 .bf16) (p : Fin 5000) (q : Fin 128) :
    Cert.KernelIdeal.Gen.k0_pay1 (F := Ideal) x0 x1 x2 x3 x4 x5 (ix2 p q)
      = row1K (fun l => x0 (ix2 p l) + x1 (ix2 p l)) x2 (fun k => x3 (ix2 0 k)) (fun k => x4 (ix2 0 k)) x5 q := by
  unfold Gen.k0_pay1 row1K
  simp only [shapeCast_self]
  refine (maximumf_apply _ _ _).trans ?_
  refine congrArg₂ max ?_ Ideal.ofBits_zero_f32
  refine (matmul_block_apply _ x5 p q).trans ?_
  refine Finset.sum_congr rfl fun k _ => ?_
  refine congrArg (fun y => y * x5 (ix2 k q)) ?_
  refine (truncf_apply (φ := .f32) (ψ := .bf16) _ Gen.bitsLt_bf16_f32 (ix2 p k)).trans ?_
  refine (maximumf_apply _ _ _).trans ?_
  refine congrArg₂ max ?_ Ideal.ofBits_zero_f32
  refine (addf_apply _ _ _).trans ?_
  refine congrArg₂ (fun y z => y + z) ?_ (broadcastTo_1b_ab_apply x4 _ p k)
  refine (mulf_apply _ _ _).trans ?_
  exact congrArg₂ (fun y z => y * z) (matmul_block_apply _ x2 p k) (broadcastTo_1b_ab_apply x3 _ p k)

end Cert.Gin

end
-- ==== Proof.Region0.lean ====
/-
  The first layer's region: the array it leaves.

  The region walks ten blocks of 5000 rows. At block `t` the body reads rows `5000 t … 5000 t + 4999` of the node
  features and of their neighbour sums, and all of the two weight matrices and of the scale and shift rows, and
  writes the same rows of the output. A row of the output depends only on the same row of the two inputs, so
  what block `t` writes back is rows `5000 t …` of ONE function of the whole arrays (`G0`); the ten blocks cover
  the output, which therefore ends holding that function.
-/
import proofs.«179697_j90056874262918_2_alg».proof.Proof.Gen.KernelIdeal.Frame
import proofs.«179697_j90056874262918_2_alg».proof.Proof.Spec
import proofs.«179697_j90056874262918_2_alg».proof.Proof.Payload
import Idealize.ShloMosaic.Lib.Pipeline.Value
import Idealize.ShloMosaic.Lib.ValueIdx

set_option maxRecDepth 16384

noncomputable section

namespace Cert.KernelIdeal.GinValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The first layer as one function of the whole arrays: row `i 0` of the features plus row `i 0` of the neighbour
    sums, through the first layer's row function, at column `i 1`. -/
def G0 (a0 a1 : S50000x128.Idx → EReal) (w2 : S128x128.Idx → EReal) (s3 s4 : S1x128.Idx → EReal) (w5 : S128x128.Idx → EReal) :
    S50000x128.Idx → EReal :=
  fun i => row1K (fun l => a0 (ix2 (n0 := 50000) (n1 := 128) (i 0) l) + a1 (ix2 (n0 := 50000) (n1 := 128) (i 0) l)) w2
    (fun k => s3 (ix2 (n0 := 1) (n1 := 128) 0 k)) (fun k => s4 (ix2 (n0 := 1) (n1 := 128) 0 k)) w5 (i 1)

/-- The block index of every window at every point: the two row-blocked inputs and the output are at block `t` of
    the rows, everything else at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The features' block at point `t` is rows `5000 t …` of the features. -/
theorem iblk0_0_apply (c : Dev nD) (t : Fin cfg0.N) (x : S5000x128.Idx) (k : S50000x128.Idx)
    (hk0 : (k 0).val = t.val * 5000 + (x 0).val) (hk1 : (k 1).val = (x 1).val) :
    (iblk0 V c 0 t : Vec Ideal S5000x128 .f32) x = (V c main_arg0 : S50000x128.Idx → Elt Ideal .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The neighbour sums' block at point `t` is rows `5000 t …` of the neighbour sums. -/
theorem iblk0_1_apply (c : Dev nD) (t : Fin cfg0.N) (x : S5000x128.Idx) (k : S50000x128.Idx)
    (hk0 : (k 0).val = t.val * 5000 + (x 0).val) (hk1 : (k 1).val = (x 1).val) :
    (iblk0 V c 1 t : Vec Ideal S5000x128 .f32) x = (V c main_v15 : S50000x128.Idx → Elt Ideal .f32) k := by
  obtain ⟨-, -, e0, e1, -⟩ := idx0 t
  unfold iblk0
  rw [View.read_apply]
  show V c main_v15 _ = V c main_v15 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The first weight matrix is read whole at every point. -/
theorem iblk0_2_eq (c : Dev nD) (t : Fin cfg0.N) :
    (iblk0 V c 2 t : Vec Ideal S128x128 .bf16) = (V c main_v25 : S128x128.Idx → Elt Ideal .bf16) := by
  obtain ⟨-, -, -, -, e0, e1, -⟩ := idx0 t
  funext x
  unfold iblk0
  rw [View.read_apply]
  show V c main_v25 _ = V c main_v25 x
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The scale row is read whole at every point. -/
theorem iblk0_3_eq (c : Dev nD) (t : Fin cfg0.N) :
    (iblk0 V c 3 t : Vec Ideal S1x128 .f32) = (V c main_v20 : S1x128.Idx → Elt Ideal .f32) := by
  obtain ⟨-, -, -, -, -, -, e0, e1, -⟩ := idx0 t
  funext x
  unfold iblk0
  rw [View.read_apply]
  show V c main_v20 _ = V c main_v20 x
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The shift row is read whole at every point. -/
theorem iblk0_4_eq (c : Dev nD) (t : Fin cfg0.N) :
    (iblk0 V c 4 t : Vec Ideal S1x128 .f32) = (V c main_v23 : S1x128.Idx → Elt Ideal .f32) := by
  obtain ⟨-, -, -, -, -, -, -, -, e0, e1, -⟩ := idx0 t
  funext x
  unfold iblk0
  rw [View.read_apply]
  show V c main_v23 _ = V c main_v23 x
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The second weight matrix is read whole at every point. -/
theorem iblk0_5_eq (c : Dev nD) (t : Fin cfg0.N) :
    (iblk0 V c 5 t : Vec Ideal S128x128 .bf16) = (V c main_v27 : S128x128.Idx → Elt Ideal .bf16) := by
  obtain ⟨-, -, -, -, -, -, -, -, -, -, e0, e1, -⟩ := idx0 t
  funext x
  unfold iblk0
  rw [View.read_apply]
  show V c main_v27 _ = V c main_v27 x
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

/-- One point's stored value at entry `j` of its block is `G0` at the array index `i` that the block puts `j` at,
    when the two row-blocked inputs are the rows `5000 tv …` of their arrays and the rest are the whole arrays. -/
theorem point0 (x0 x1 : Vec Ideal S5000x128 .f32) (x2 : Vec Ideal S128x128 .bf16) (x3 x4 : Vec Ideal S1x128 .f32) (x5 : Vec Ideal S128x128 .bf16)
    (a0 a1 : S50000x128.Idx → EReal) (w2 : S128x128.Idx → EReal) (s3 s4 : S1x128.Idx → EReal) (w5 : S128x128.Idx → EReal) (tv : Nat)
    (h0 : ∀ (x : S5000x128.Idx) (k : S50000x128.Idx), (k 0).val = tv * 5000 + (x 0).val → (k 1).val = (x 1).val → x0 x = a0 k)
    (h1 : ∀ (x : S5000x128.Idx) (k : S50000x128.Idx), (k 0).val = tv * 5000 + (x 0).val → (k 1).val = (x 1).val → x1 x = a1 k)
    (h2 : x2 = w2) (h3 : x3 = s3) (h4 : x4 = s4) (h5 : x5 = w5)
    (j : S5000x128.Idx) (i : S50000x128.Idx) (hi0 : (i 0).val = tv * 5000 + (j 0).val) (hi1 : (i 1).val = (j 1).val) :
    k0_pay1 (F := Ideal) x0 x1 x2 x3 x4 x5 j = G0 a0 a1 w2 s3 s4 w5 i := by
  subst h2 h3 h4 h5
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hq : q' = q := Fin.ext hi1
  subst hq
  rw [pay0_apply]
  unfold G0
  show row1K (fun l => x0 (ix2 p l) + x1 (ix2 p l)) x2 (fun k => x3 (ix2 0 k)) (fun k => x4 (ix2 0 k)) x5 q'
    = row1K (fun l => a0 (ix2 p' l) + a1 (ix2 p' l)) x2 (fun k => x3 (ix2 0 k)) (fun k => x4 (ix2 0 k)) x5 q'
  have e : (fun l : Fin 128 => x0 (ix2 p l) + x1 (ix2 p l)) = fun l => a0 (ix2 p' l) + a1 (ix2 p' l) :=
    funext fun l => by rw [h0 (ix2 p l) (ix2 p' l) hi0 rfl, h1 (ix2 p l) (ix2 p' l) hi0 rfl]
  rw [e]

/-- WHAT POINT `t` WRITES BACK is block `t` of `G0` of the arrays as the region finds them. -/
theorem flushed0_eq (c : Dev nD) (t : Fin cfg0.N) :
    (dat0 V c).flushed 6 t = ((cfg0.win 6).blk t).view.read (Elt Ideal)
      (G0 (V c main_arg0) (V c main_v15) (V c main_v25) (V c main_v20) (V c main_v23) (V c main_v27)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨-, -, -, -, -, -, -, -, -, -, -, -, e0, e1⟩ := idx0 t
  funext j
  rw [View.read_apply]
  refine point0 (iblk0 V c 0 t) (iblk0 V c 1 t) (iblk0 V c 2 t) (iblk0 V c 3 t) (iblk0 V c 4 t) (iblk0 V c 5 t)
    (V c main_arg0) (V c main_v15) (V c main_v25) (V c main_v20) (V c main_v23) (V c main_v27) t.val
    (fun x k hk0 hk1 => iblk0_0_apply V c t x k hk0 hk1) (fun x k hk0 hk1 => iblk0_1_apply V c t x k hk0 hk1)
    (iblk0_2_eq V c t) (iblk0_3_eq V c t) (iblk0_4_eq V c t) (iblk0_5_eq V c t) j (((cfg0.win 6).blk t).view.emb j) ?_ ?_
  · show win0_6.index t 0 * 5000 + 1 * (j 0).val = t.val * 5000 + (j 0).val; rw [e0]; omega
  · show win0_6.index t 1 * 128 + 1 * (j 1).val = (j 1).val; rw [e1]; omega

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- THE OUTPUT ARRAY after the region: `G0` of the arrays as the region finds them. Row `r` is in block `r / 5000`. -/
theorem final0 (c : Dev nD) : (dat0 V c).arrAt 6 cfg0.N
    = G0 (V c main_arg0) (V c main_v15) (V c main_v25) (V c main_v20) (V c main_v23) (V c main_v27) :=
  (dat0 V c).arrAt_eq_of_cover 6 _ (fun t _ => flushed0_eq V c t) fun i => by
    have hN : cfg0.N = 10 := N_0
    have hi0 : (i 0).val < 50000 := (i 0).isLt
    have hi1 : (i 1).val < 128 := (i 1).isLt
    refine ⟨⟨(i 0).val / 5000, by omega⟩, flush0_6 _, ?_⟩
    obtain ⟨-, -, -, -, -, -, -, -, -, -, -, -, e0, e1⟩ := idx0 ⟨(i 0).val / 5000, by omega⟩
    rw [mem_blk0]
    intro a
    match a with
    | ⟨0, _⟩ =>
      show win0_6.index ⟨(i 0).val / 5000, _⟩ (0 : Fin 2) * 5000 ≤ (i 0).val ∧ (i 0).val < win0_6.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_6.index ⟨(i 0).val / 5000, _⟩ (1 : Fin 2) * 128 ≤ (i 1).val ∧ (i 1).val < win0_6.index ⟨(i 0).val / 5000, _⟩ (1 : Fin 2) * 128 + 128
      rw [e1]; omega

end Cert.KernelIdeal.GinValue

end
-- ==== Proof.Region1.lean ====
/-
  The second layer's region: the array it leaves.

  As in the first layer's region, block `t` of ten reads rows `5000 t … 5000 t + 4999` of the first layer's output
  and of its neighbour sums, and all of the two weight matrices (the second padded with zero columns to 128), and
  writes the same rows of the output; the output ends holding one function of the whole arrays (`G1`).
-/
import proofs.«179697_j90056874262918_2_alg».proof.Proof.Region0

set_option maxRecDepth 16384

noncomputable section

namespace Cert.KernelIdeal.GinValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gin

variable (V : (c : Dev nD) → (b : Ref sig .tc) → Buf (Elt Ideal) ((c : Thread nD τ).loc b))

/-- The second layer as one function of the whole arrays: row `i 0` of the first layer's output plus row `i 0` of
    its neighbour sums, through the second layer's row function, at column `i 1`. -/
def G1 (a0 a1 : S50000x128.Idx → EReal) (w2 w3 : S128x128.Idx → EReal) : S50000x128.Idx → EReal :=
  fun i => row2 (c := 128) (fun l => a0 (ix2 (n0 := 50000) (n1 := 128) (i 0) l) + a1 (ix2 (n0 := 50000) (n1 := 128) (i 0) l)) w2 w3 (i 1)

/-- The block index of every window at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first layer's output's block at point `t` is its rows `5000 t …`. -/
theorem iblk1_0_apply (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v28 : S50000x128.Idx → Elt Ideal .f32) k := by
  obtain ⟨e0, e1, -⟩ := idx1 t
  unfold iblk1
  rw [View.read_apply]
  show V c main_v28 _ = V c main_v28 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The neighbour sums' block at point `t` is their rows `5000 t …`. -/
theorem iblk1_1_apply (c : Dev nD) (t : Fin cfg1.N) (x : S5000x128.Idx) (k : S50000x128.Idx)
    (hk0 : (k 0).val = t.val * 5000 + (x 0).val) (hk1 : (k 1).val = (x 1).val) :
    (iblk1 V c 1 t : Vec Ideal S5000x128 .f32) x = (V c main_v40 : S50000x128.Idx → Elt Ideal .f32) k := by
  obtain ⟨-, -, e0, e1, -⟩ := idx1 t
  unfold iblk1
  rw [View.read_apply]
  show V c main_v40 _ = V c main_v40 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The first weight matrix is read whole at every point. -/
theorem iblk1_2_eq (c : Dev nD) (t : Fin cfg1.N) :
    (iblk1 V c 2 t : Vec Ideal S128x128 .bf16) = (V c main_v42 : S128x128.Idx → Elt Ideal .bf16) := by
  obtain ⟨-, -, -, -, e0, e1, -⟩ := idx1 t
  funext x
  unfold iblk1
  rw [View.read_apply]
  show V c main_v42 _ = V c main_v42 x
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The padded second weight matrix is read whole at every point. -/
theorem iblk1_3_eq (c : Dev nD) (t : Fin cfg1.N) :
    (iblk1 V c 3 t : Vec Ideal S128x128 .bf16) = (V c main_v45 : S128x128.Idx → Elt Ideal .bf16) := by
  obtain ⟨-, -, -, -, -, -, e0, e1, -⟩ := idx1 t
  funext x
  unfold iblk1
  rw [View.read_apply]
  show V c main_v45 _ = V c main_v45 x
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- One point's stored value at entry `j` of its block is `G1` at the array index `i` that the block puts `j` at. -/
theorem point1 (x0 x1 : Vec Ideal S5000x128 .f32) (x2 x3 : Vec Ideal S128x128 .bf16)
    (a0 a1 : S50000x128.Idx → EReal) (w2 w3 : S128x128.Idx → EReal) (tv : Nat)
    (h0 : ∀ (x : S5000x128.Idx) (k : S50000x128.Idx), (k 0).val = tv * 5000 + (x 0).val → (k 1).val = (x 1).val → x0 x = a0 k)
    (h1 : ∀ (x : S5000x128.Idx) (k : S50000x128.Idx), (k 0).val = tv * 5000 + (x 0).val → (k 1).val = (x 1).val → x1 x = a1 k)
    (h2 : x2 = w2) (h3 : x3 = w3)
    (j : S5000x128.Idx) (i : S50000x128.Idx) (hi0 : (i 0).val = tv * 5000 + (j 0).val) (hi1 : (i 1).val = (j 1).val) :
    k1_pay1 (F := Ideal) x0 x1 x2 x3 j = G1 a0 a1 w2 w3 i := by
  subst h2 h3
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hq : q' = q := Fin.ext hi1
  subst hq
  rw [pay1_apply]
  unfold G1
  show row2 (fun l => x0 (ix2 p l) + x1 (ix2 p l)) x2 x3 q'
    = row2 (fun l => a0 (ix2 p' l) + a1 (ix2 p' l)) x2 x3 q'
  have e : (fun l : Fin 128 => x0 (ix2 p l) + x1 (ix2 p l)) = fun l => a0 (ix2 p' l) + a1 (ix2 p' l) :=
    funext fun l => by rw [h0 (ix2 p l) (ix2 p' l) hi0 rfl, h1 (ix2 p l) (ix2 p' l) hi0 rfl]
  rw [e]

/-- WHAT POINT `t` WRITES BACK is block `t` of `G1` of the arrays as the region finds them. -/
theorem flushed1_eq (c : Dev nD) (t : Fin cfg1.N) :
    (dat1 V c).flushed 4 t = ((cfg1.win 4).blk t).view.read (Elt Ideal)
      (G1 (V c main_v28) (V c main_v40) (V c main_v42) (V c main_v45)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  obtain ⟨-, -, -, -, -, -, -, -, e0, e1⟩ := idx1 t
  funext j
  rw [View.read_apply]
  refine point1 (iblk1 V c 0 t) (iblk1 V c 1 t) (iblk1 V c 2 t) (iblk1 V c 3 t)
    (V c main_v28) (V c main_v40) (V c main_v42) (V c main_v45) t.val
    (fun x k hk0 hk1 => iblk1_0_apply V c t x k hk0 hk1) (fun x k hk0 hk1 => iblk1_1_apply V c t x k hk0 hk1)
    (iblk1_2_eq V c t) (iblk1_3_eq V c t) j (((cfg1.win 4).blk t).view.emb j) ?_ ?_
  · show win1_4.index t 0 * 5000 + 1 * (j 0).val = t.val * 5000 + (j 0).val; rw [e0]; omega
  · show win1_4.index t 1 * 128 + 1 * (j 1).val = (j 1).val; rw [e1]; omega

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- THE OUTPUT ARRAY after the region: `G1` of the arrays as the region finds them. Row `r` is in block `r / 5000`. -/
theorem final1 (c : Dev nD) : (dat1 V c).arrAt 4 cfg1.N
    = G1 (V c main_v28) (V c main_v40) (V c main_v42) (V c main_v45) :=
  (dat1 V c).arrAt_eq_of_cover 4 _ (fun t _ => flushed1_eq V c t) fun i => by
    have hN : cfg1.N = 10 := N_1
    have hi0 : (i 0).val < 50000 := (i 0).isLt
    have hi1 : (i 1).val < 128 := (i 1).isLt
    refine ⟨⟨(i 0).val / 5000, by omega⟩, flush1_4 _, ?_⟩
    obtain ⟨-, -, -, -, -, -, -, -, e0, e1⟩ := idx1 ⟨(i 0).val / 5000, by omega⟩
    rw [mem_blk1]
    intro a
    match a with
    | ⟨0, _⟩ =>
      show win1_4.index ⟨(i 0).val / 5000, _⟩ (0 : Fin 2) * 5000 ≤ (i 0).val ∧ (i 0).val < win1_4.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win1_4.index ⟨(i 0).val / 5000, _⟩ (1 : Fin 2) * 128 ≤ (i 1).val ∧ (i 1).val < win1_4.index ⟨(i 0).val / 5000, _⟩ (1 : Fin 2) * 128 + 128
      rw [e1]; omega

end Cert.KernelIdeal.GinValue

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.Host.lean ====
/-
  The host operations of the kernel program, read as functions of the launch arrays.

  Before the first layer's region the program forms, from the launch arrays: the neighbour sums of the node
  features (gather the source rows, scatter-add them at the destination rows), the two weight matrices transposed,
  and the batch normalisation folded to a scale row `gamma / sqrt (var + eps)` and a shift row
  `beta - mean * scale`. Between the regions it forms the neighbour sums of the first layer's output, the third
  weight matrix transposed, and the fourth transposed and padded with 88 zero columns. After the second region it
  keeps the first 40 columns. Changes of number format are the identity on the extended reals, so each of these is
  literally the array the reference program forms at the corresponding place: the equations below say so, with
  the reference's own stage functions on the right-hand sides.
-/
import proofs.«179697_j90056874262918_2_alg».proof.Proof.Gen.KernelIdeal.Frame
import proofs.«179697_j90056874262918_2_alg».proof.Proof.Gen.ReferenceIdeal.Read
import proofs.«179697_j90056874262918_2_alg».proof.Proof.LibUnitRow
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.GinHost

open Idealize.ShloMosaic Idealize.ShloMosaic.TcCoe Idealize.ShloMosaic.ValueIdx
open Idealize.SL Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg)

/-- The folded batch normalisation's shift: `beta - mean * scale`. -/
abbrev shiftAt (b mu s : EReal) : EReal := b - mu * s

/-! ## What the first region finds -/

/-- The node features are as launched. -/
theorem V1_arg0 (c : Dev nD) :
    (V1 m ρ c main_arg0 : S50000x128.Idx → EReal) = m ((c : Thread nD τ).loc main_arg0) := by
  show StableHlo.after hostOps0 (W0 m ρ c) (Proc.devRef .tc main_arg0) = _
  after_results_simp

/-- The neighbour sums of the node features. -/
theorem V1_v15 (c : Dev nD) :
    (V1 m ρ c main_v15 : S50000x128.Idx → EReal)
      = val_main_v13 (F := Ideal) (m ((c : Thread nD τ).loc main_arg0)) (m ((c : Thread nD τ).loc main_arg1)) := by
  show StableHlo.after hostOps0 (W0 m ρ c) (Proc.devRef .tc main_v15) = _
  after_results_simp
  rfl

/-- The first weight matrix, transposed. -/
theorem V1_v25 (c : Dev nD) :
    (V1 m ρ c main_v25 : S128x128.Idx → EReal) = val_main_v15 (F := Ideal) (m ((c : Thread nD τ).loc main_arg2)) := by
  show StableHlo.after hostOps0 (W0 m ρ c) (Proc.devRef .tc main_v25) = _
  after_results_simp
  rfl

/-- The second weight matrix, transposed. -/
theorem V1_v27 (c : Dev nD) :
    (V1 m ρ c main_v27 : S128x128.Idx → EReal) = val_main_v31 (F := Ideal) (m ((c : Thread nD τ).loc main_arg7)) := by
  show StableHlo.after hostOps0 (W0 m ρ c) (Proc.devRef .tc main_v27) = _
  after_results_simp
  rfl

/-- The scale row at column `k` is the reference's scale `gamma / sqrt (var + eps)` at `k`. -/
theorem V1_v20 (c : Dev nD) (k : Fin 128) :
    (V1 m ρ c main_v20 : S1x128.Idx → EReal) (ix2 (0 : Fin 1) k)
      = val_main_v23 (F := Ideal) (m ((c : Thread nD τ).loc main_arg3)) (m ((c : Thread nD τ).loc main_arg6)) (ix1 k) := by
  have e : (V1 m ρ c main_v20 : S1x128.Idx → EReal)
      = shapeCast S1x128 (val_main_v23 (F := Ideal) (m ((c : Thread nD τ).loc main_arg3)) (m ((c : Thread nD τ).loc main_arg6))) shapeCasts_S128_S1x128 := by
    show StableHlo.after hostOps0 (W0 m ρ c) (Proc.devRef .tc main_v20) = _
    after_results_simp
    rfl
  rw [e]
  exact Cert.LibUnitRow.unitRow_apply _ _ 0 k

/-- The shift row at column `k` is `beta k - mean k * scale k`. -/
theorem V1_v23 (c : Dev nD) (k : Fin 128) :
    (V1 m ρ c main_v23 : S1x128.Idx → EReal) (ix2 (0 : Fin 1) k)
      = shiftAt (m ((c : Thread nD τ).loc main_arg4) (ix1 k)) (m ((c : Thread nD τ).loc main_arg5) (ix1 k))
          (val_main_v23 (F := Ideal) (m ((c : Thread nD τ).loc main_arg3)) (m ((c : Thread nD τ).loc main_arg6)) (ix1 k)) := by
  have e : (V1 m ρ c main_v23 : S1x128.Idx → EReal)
      = shapeCast S1x128 (subf (F := Ideal) (φ := .f32) (m ((c : Thread nD τ).loc main_arg4))
          (mulf (F := Ideal) (φ := .f32) (m ((c : Thread nD τ).loc main_arg5))
            (val_main_v23 (F := Ideal) (m ((c : Thread nD τ).loc main_arg3)) (m ((c : Thread nD τ).loc main_arg6))))) shapeCasts_S128_S1x128 := by
    show StableHlo.after hostOps0 (W0 m ρ c) (Proc.devRef .tc main_v23) = _
    after_results_simp
    rfl
  rw [e]
  refine (Cert.LibUnitRow.unitRow_apply _ _ 0 k).trans ?_
  show FloatOps.subf _ (FloatOps.mulf _ _) = _
  rw [Ideal.subf_def, Ideal.mulf_def]

/-! ## What the second region finds -/

/-- The first layer's output is what the first region left. -/
theorem V4_v28 (c : Dev nD) :
    V4 m ρ c main_v28 = (dat0 (V1 m ρ) c).arrAt 6 cfg0.N := by
  show StableHlo.after hostOps1_1 (StableHlo.after hostOps1 (W2 m ρ c)) (Proc.devRef .tc main_v28) = _
  after_results_simp
  exact W2_arr m ρ c 6

/-- The neighbour sums of the first layer's output: the same gather and scatter-add, along the same edges. -/
theorem V4_v40 (c : Dev nD) :
    (V4 m ρ c main_v40 : S50000x128.Idx → EReal)
      = val_main_v13 (F := Ideal) (V4 m ρ c main_v28 : S50000x128.Idx → EReal) (m ((c : Thread nD τ).loc main_arg1)) := by
  have e28 : (V4 m ρ c main_v28 : S50000x128.Idx → EReal) = W2 m ρ c (Proc.devRef .tc main_v28) := by
    show StableHlo.after hostOps1_1 (StableHlo.after hostOps1 (W2 m ρ c)) (Proc.devRef .tc main_v28) = _
    after_results_simp
  rw [e28]
  show StableHlo.after hostOps1_1 (StableHlo.after hostOps1 (W2 m ρ c)) (Proc.devRef .tc main_v40) = _
  after_results_simp
  rw [W2_of_ne m ρ c main_v1 (by decide), W2_of_ne m ρ c main_v3 (by decide)]
  dsimp only [W1, hostOps0]
  after_results_simp
  rfl

/-- The third weight matrix, transposed. -/
theorem V4_v42 (c : Dev nD) :
    (V4 m ρ c main_v42 : S128x128.Idx → EReal) = val_main_v45 (F := Ideal) (m ((c : Thread nD τ).loc main_arg8)) := by
  show StableHlo.after hostOps1_1 (StableHlo.after hostOps1 (W2 m ρ c)) (Proc.devRef .tc main_v42) = _
  after_results_simp
  rw [W2_of_ne m ρ c main_arg8 (by decide)]
  dsimp only [W1, hostOps0]
  after_results_simp
  rfl

/-- The fourth weight matrix, transposed and padded: its first 40 columns are the transposed matrix. -/
theorem V4_v45 (c : Dev nD) (k : Fin 128) (q : Fin 40) :
    (V4 m ρ c main_v45 : S128x128.Idx → EReal) (ix2 k (⟨q.val, by omega⟩ : Fin 128))
      = val_main_v48 (F := Ideal) (m ((c : Thread nD τ).loc main_arg9)) (ix2 k q) := by
  have e : (V4 m ρ c main_v45 : S128x128.Idx → EReal)
      = pad S128x128 ![0, 0] ![0, 88] ![0, 0] (val_main_v48 (F := Ideal) (m ((c : Thread nD τ).loc main_arg9)))
          (sitofp (F := Ideal) .bf16 (constantI S_ 32 0#32)) pads_S128x40_S128x128_000_0880 h_S_ := by
    show StableHlo.after hostOps1_1 (StableHlo.after hostOps1 (W2 m ρ c)) (Proc.devRef .tc main_v45) = _
    after_results_simp
    rw [W2_of_ne m ρ c main_arg9 (by decide)]
    dsimp only [W1, hostOps0]
    after_results_simp
    rfl
  rw [e]
  exact pad_apply_of_inside ![0, 0] ![0, 88] ![0, 0] _ _ pads_S128x40_S128x128_000_0880 h_S_
    (ix2 k (⟨q.val, by omega⟩ : Fin 128)) (ix2 k q) (fun a => by
      match a with
      | ⟨0, _⟩ => show k.val = 0 + k.val * (0 + 1); omega
      | ⟨1, _⟩ => show q.val = 0 + q.val * (0 + 1); omega)

/-! ## The result -/

/-- The result at `(p, q)` is what the second region left at `(p, q)`. -/
theorem W6_v47 (c : Dev nD) (p : Fin 50000) (q : Fin 40) :
    (W6 m ρ c (Proc.devRef .tc main_v47) : S50000x40.Idx → EReal) (ix2 p q)
      = ((dat1 (V4 m ρ) c).arrAt 4 cfg1.N : S50000x128.Idx → EReal) (ix2 p (⟨q.val, by omega⟩ : Fin 128)) := by
  have e : (W6 m ρ c (Proc.devRef .tc main_v47) : S50000x40.Idx → EReal)
      = extractStridedSlice S50000x40 ![0, 0] ((dat1 (V4 m ρ) c).arrAt 4 cfg1.N : S50000x128.Idx → EReal) slices_S50000x128_S50000x40_0_0 := by
    show StableHlo.after hostOps2 (W5 m ρ c) (Proc.devRef .tc main_v47) = _
    after_results_simp
    exact congrArg (fun x => extractStridedSlice S50000x40 ![0, 0] x slices_S50000x128_S50000x40_0_0) (W5_arr m ρ c 4)
  rw [e]
  exact extractStridedSlice_apply ![0, 0] _ slices_S50000x128_S50000x40_0_0 (ix2 p q) (ix2 p (⟨q.val, by omega⟩ : Fin 128)) (fun a => by
    match a with
    | ⟨0, _⟩ => show p.val = 0 + p.val; omega
    | ⟨1, _⟩ => show q.val = 0 + q.val; omega)

end Cert.KernelIdeal.GinHost

end
-- ==== Proof.RefLayers.lean ====
/-
  The reference program's two layers, read at one index.

  The reference computes each layer with whole-array operations: add the neighbour sum to the node features, multiply
  by a transposed weight matrix, (first layer only) subtract a per-column mean, multiply by a per-column scale and add a
  per-column shift, clamp at zero, multiply by a second transposed matrix, clamp at zero again. Reading the last
  operation at an index `(p, q)`, and then each operand where that operation reads it, gives a nested sum over the two
  contraction indices. That nested sum is the specification's row function applied to row `p` of the layer's input.

  The two neighbour sums stay closed: only their values at `(p, l)` enter, as entries of the input row.
-/
import proofs.«179697_j90056874262918_2_alg».proof.Proof.Gen.ReferenceIdeal.Read
import proofs.«179697_j90056874262918_2_alg».proof.Proof.Spec
import Idealize.ShloMosaic.Lib.ValueIdx
import Idealize.ShloMosaic.PureOps.Ideal.Laws

noncomputable section

namespace Cert.Gin

open Idealize.ShloMosaic Idealize.ShloMosaic.ValueIdx Cert.ReferenceIdeal Cert.ReferenceIdeal.Read

/-! ## The composed index maps at a coordinate pair

Each operation reads its operands at an index computed from the output index. At the output index `(p, k)` these
composed maps are the literal coordinate pairs below: a matrix product reads row `p` of the left operand and column `k`
of the right one, and a per-column vector broadcast over the rows is read at `k`. -/

theorem lidx16_ix (p : Fin 50000) (k l : Fin 128) : lidx_main_v16 (ix2 p k) l = ix2 p l :=
  funext fun a => Fin.ext (by match a with | ⟨0, _⟩ => rfl | ⟨1, _⟩ => rfl)

theorem ridx16_ix (p : Fin 50000) (k l : Fin 128) : ridx_main_v16 (ix2 p k) l = ix2 l k :=
  funext fun a => Fin.ext (by match a with | ⟨0, _⟩ => rfl | ⟨1, _⟩ => rfl)

theorem idx17_18_ix (p : Fin 50000) (k : Fin 128) : idx_main_v17 (idx_main_v18 (ix2 p k)) = ix1 k :=
  funext fun a => Fin.ext (by match a with | ⟨0, _⟩ => rfl)

theorem idx24_25_ix (p : Fin 50000) (k : Fin 128) : idx_main_v24 (idx_main_v25 (ix2 p k)) = ix1 k :=
  funext fun a => Fin.ext (by match a with | ⟨0, _⟩ => rfl)

theorem idx27_28_ix (p : Fin 50000) (k : Fin 128) : idx_main_v27 (idx_main_v28 (ix2 p k)) = ix1 k :=
  funext fun a => Fin.ext (by match a with | ⟨0, _⟩ => rfl)

theorem lidx32_ix (p : Fin 50000) (q k : Fin 128) : lidx_main_v32 (ix2 p q) k = ix2 p k :=
  funext fun a => Fin.ext (by match a with | ⟨0, _⟩ => rfl | ⟨1, _⟩ => rfl)

theorem ridx32_ix (p : Fin 50000) (q k : Fin 128) : ridx_main_v32 (ix2 p q) k = ix2 k q :=
  funext fun a => Fin.ext (by match a with | ⟨0, _⟩ => rfl | ⟨1, _⟩ => rfl)

theorem lidx46_ix (p : Fin 50000) (k l : Fin 128) : lidx_main_v46 (ix2 p k) l = ix2 p l :=
  funext fun a => Fin.ext (by match a with | ⟨0, _⟩ => rfl | ⟨1, _⟩ => rfl)

theorem ridx46_ix (p : Fin 50000) (k l : Fin 128) : ridx_main_v46 (ix2 p k) l = ix2 l k :=
  funext fun a => Fin.ext (by match a with | ⟨0, _⟩ => rfl | ⟨1, _⟩ => rfl)

theorem lidx49_ix (p : Fin 50000) (q : Fin 40) (k : Fin 128) : lidx_main_v49 (ix2 p q) k = ix2 p k :=
  funext fun a => Fin.ext (by match a with | ⟨0, _⟩ => rfl | ⟨1, _⟩ => rfl)

theorem ridx49_ix (p : Fin 50000) (q : Fin 40) (k : Fin 128) : ridx_main_v49 (ix2 p q) k = ix2 k q :=
  funext fun a => Fin.ext (by match a with | ⟨0, _⟩ => rfl | ⟨1, _⟩ => rfl)

/-- The first layer before its first clamp, at `(p, k)`: the row `x0 p + (neighbour sum) p` times column `k` of the
    transposed first matrix, minus the mean, times the scale, plus the shift. -/
theorem v29_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 x6 : (⟨S128, .f32⟩ : BufTy).Contents (Elt Ideal)) (p : Fin 50000) (k : Fin 128) :
    val_main_v29 (F := Ideal) x0 x1 x2 x3 x4 x5 x6 (ix2 p k)
      = ((∑ l : Fin 128, (x0 (ix2 p l) + val_main_v13 (F := Ideal) x0 x1 (ix2 p l)) * val_main_v15 (F := Ideal) x2 (ix2 l k))
          - x5 (ix1 k)) * val_main_v23 (F := Ideal) x3 x6 (ix1 k) + x4 (ix1 k) := by
  rw [val_main_v29_apply, val_main_v26_apply, val_main_v19_apply, val_main_v16_apply, val_main_v18_apply,
    val_main_v17_apply, val_main_v25_apply, val_main_v24_apply, val_main_v28_apply, val_main_v27_apply,
    idx17_18_ix, idx24_25_ix, idx27_28_ix]
  simp only [val_main_v14_apply, lidx16_ix, ridx16_ix, Ideal.addf_def, Ideal.subf_def, Ideal.mulf_def]

/-- The first layer after its first clamp, at `(p, k)`: the clamp's other operand is the zero constant broadcast to
    every index, and the ideal maximum is `max`. -/
theorem v30_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 x6 : (⟨S128, .f32⟩ : BufTy).Contents (Elt Ideal)) (p : Fin 50000) (k : Fin 128) :
    val_main_v30 (F := Ideal) x0 x1 x2 x3 x4 x5 x6 (ix2 p k)
      = max (val_main_v29 (F := Ideal) x0 x1 x2 x3 x4 x5 x6 (ix2 p k)) 0 := by
  rw [val_main_v30_apply, val_main_call0_v0_apply, val_main_call0_cst_apply, Ideal.maximumf_def, Ideal.ofBits_def,
    Ideal.ofBits_zero_f32]

/-- The first layer of the reference at `(p, q)` is the specification's row function (mean subtracted, scaled,
    shifted) of row `p` of `x0 + neighbour sum`. -/
theorem ref_layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 x6 : (⟨S128, .f32⟩ : BufTy).Contents (Elt Ideal)) (x7 : (⟨S128x128, .f32⟩ : BufTy).Contents (Elt Ideal)) (p : Fin 50000) (q : Fin 128) :
    val_main_v33 (F := Ideal) x0 x1 x2 x3 x4 x5 x6 x7 (ix2 p q)
      = row1R (fun l => x0 (ix2 p l) + val_main_v13 (F := Ideal) x0 x1 (ix2 p l))
              (val_main_v15 (F := Ideal) x2)
              (fun k => x5 (ix1 k)) (fun k => val_main_v23 (F := Ideal) x3 x6 (ix1 k)) (fun k => x4 (ix1 k))
              (val_main_v31 (F := Ideal) x7) q := by
  rw [val_main_v33_apply, val_main_call1_v0_apply, val_main_call1_cst_apply, val_main_v32_apply, Ideal.maximumf_def,
    Ideal.ofBits_def, Ideal.ofBits_zero_f32]
  unfold row1R
  refine congrArg (fun t => max t 0) (Finset.sum_congr rfl fun k _ => ?_)
  rw [lidx32_ix, ridx32_ix, v30_at, v29_at]

/-- The second layer after its first clamp, at `(p, k)`. -/
theorem v47_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 x6 : (⟨S128, .f32⟩ : BufTy).Contents (Elt Ideal)) (x7 x8 : (⟨S128x128, .f32⟩ : BufTy).Contents (Elt Ideal)) (p : Fin 50000) (k : Fin 128) :
    val_main_v47 (F := Ideal) x0 x1 x2 x3 x4 x5 x6 x7 x8 (ix2 p k)
      = max (∑ l : Fin 128, (val_main_v33 (F := Ideal) x0 x1 x2 x3 x4 x5 x6 x7 (ix2 p l)
                              + val_main_v43 (F := Ideal) x0 x1 x2 x3 x4 x5 x6 x7 (ix2 p l))
                            * val_main_v45 (F := Ideal) x8 (ix2 l k)) 0 := by
  rw [val_main_v47_apply, val_main_call2_v0_apply, val_main_call2_cst_apply, val_main_v46_apply, Ideal.maximumf_def,
    Ideal.ofBits_def, Ideal.ofBits_zero_f32]
  simp only [val_main_v44_apply, lidx46_ix, ridx46_ix, Ideal.addf_def]

/-- The second layer of the reference at `(p, q)` is the specification's row function of row `p` of
    `first layer + its neighbour sum`. -/
theorem ref_layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 x6 : (⟨S128, .f32⟩ : BufTy).Contents (Elt Ideal)) (x7 x8 : (⟨S128x128, .f32⟩ : BufTy).Contents (Elt Ideal)) (x9 : (⟨S40x128, .f32⟩ : BufTy).Contents (Elt Ideal)) (p : Fin 50000) (q : Fin 40) :
    val_main_v50 (F := Ideal) x0 x1 x2 x3 x4 x5 x6 x7 x8 x9 (ix2 p q)
      = row2 (fun l => val_main_v33 (F := Ideal) x0 x1 x2 x3 x4 x5 x6 x7 (ix2 p l)
                       + val_main_v43 (F := Ideal) x0 x1 x2 x3 x4 x5 x6 x7 (ix2 p l))
             (val_main_v45 (F := Ideal) x8) (val_main_v48 (F := Ideal) x9) q := by
  rw [val_main_v50_apply, val_main_call3_v0_apply, val_main_call3_cst_apply, val_main_v49_apply, Ideal.maximumf_def,
    Ideal.ofBits_def, Ideal.ofBits_zero_f32]
  unfold row2
  refine congrArg (fun t => max t 0) (Finset.sum_congr rfl fun k _ => ?_)
  rw [lidx49_ix, ridx49_ix, v47_at]

end Cert.Gin

end
-- ==== Proof.PreFacts.lean ====
/-
  What the precondition says about the batch normalisation's vectors, at the extended reals.

  The precondition is a conjunction of ten one-bit conjuncts: for nine of the arguments "every entry has absolute
  value below +infinity", and for the running variance also "every entry is at least zero". A conjunct that holds
  holds at every entry. An extended real whose absolute value is below +infinity is a real number, so `gamma`,
  `beta`, the running mean and the running variance are real at every column; the variance is non-negative, the
  epsilon literal is a positive real, hence `var + eps` is a positive real with a positive real square root, and
  `gamma / sqrt (var + eps)` is a real number.
-/
import proofs.«179697_j90056874262918_2_alg».proof.Pre_finite_inputs
import proofs.«179697_j90056874262918_2_alg».proof.Proof.Gen.ReferenceIdeal.Read
import Idealize.ShloMosaic.Lib.ReduceAll
import Idealize.ShloMosaic.Lib.ValueIdx
import Idealize.ShloMosaic.PureOps.Ideal

noncomputable section

namespace Cert.Gin

open Idealize.ShloMosaic Idealize.ShloMosaic.ValueIdx

/-! ### One element -/

/-- A one-bit word built from a truth value is 1 exactly when the truth value is true. -/
theorem ofBool_eq_one' (b : Bool) : BitVec.ofBool b = 1#1 ↔ b = true := by cases b <;> decide

/-- The pattern 0x3727C5AC (the normalisation's epsilon, about 1e-5) denotes a positive real number. -/
theorem eps_pos_real : ∃ e : ℝ, 0 < e ∧ Ideal.ofBits .f32 0x3727C5AC#32 = (e : EReal) := by
  simp [Ideal.ofBits, Ideal.ieee, -EReal.coe_mul]

/-- An extended real whose absolute value is below the pattern of +infinity is a real number:
    at either infinity the absolute value is the top element, which is not below itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | coe r => exact ⟨r, rfl⟩
  | bot => simp [Ideal.cmp] at h
  | top => simp [Ideal.cmp] at h

/-- An extended real that compares greater-or-equal to the zero pattern is non-negative. -/
theorem nonneg_of_oge_zero (x : EReal)
    (h : Ideal.cmp .oge x (Ideal.ofBits .f32 0x00000000#32) = 1#1) : 0 ≤ x := by
  rw [Ideal.ofBits_zero_f32] at h
  have h' := (ofBool_eq_one' _).1 h
  exact of_decide_eq_true h'

/-- The scale of the folded normalisation at one column: a real `g` divided by the square root of a
    non-negative real `v` plus a positive real `e` is a real number, since `v + e > 0` has a positive
    real square root. -/
theorem scale_real (g v e : ℝ) (hv : 0 ≤ v) (he : 0 < e) :
    ∃ r : ℝ, Ideal.div (g : EReal) (Ideal.sqrt ((v : EReal) + (e : EReal))) = (r : EReal) := by
  have hpos : 0 < v + e := by linarith
  have hs : 0 < Real.sqrt (v + e) := Real.sqrt_pos.2 hpos
  rw [← EReal.coe_add, Ideal.sqrt_coe, if_neg (not_lt.2 hpos.le), Ideal.div_coe hs.ne', ← EReal.coe_mul]
  exact ⟨_, rfl⟩

/-! ### One conjunct of the precondition -/

/-- The scalar shape has one index. -/
theorem scalarIdx_subsingleton : Subsingleton (⟨0, ![]⟩ : Shape).Idx := ⟨fun a b => funext fun d => d.elim0⟩

/-- A conjunct "every entry of `x` has absolute value below +infinity" that holds makes every entry of
    `x` a real number. -/
theorem entries_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) :
    ∃ r : ℝ, x i = (r : EReal) := by
  haveI := scalarIdx_subsingleton
  have hi := Host.reduce_andi_all _ _ hr hu ix0 h i
  exact real_of_abs_lt_top (x i) hi

/-- A conjunct "every entry of `x` is at least zero" that holds makes every entry of `x` non-negative. -/
theorem entries_nonneg {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
          (cmpf .oge x (broadcastInDim s ![] hb (constant (F := Ideal) ⟨0, ![]⟩ .f32 0x00000000#32)))
          (constantI ⟨0, ![]⟩ 1 1#1) hr hu ix0 = 1#1) (i : s.Idx) :
    0 ≤ x i := by
  haveI := scalarIdx_subsingleton
  have hi := Host.reduce_andi_all _ _ hr hu ix0 h i
  exact nonneg_of_oge_zero (x i) hi

/-! ### The precondition -/

/-- What the precondition gives about the batch normalisation's vectors: `beta` (argument 4) and the running
    mean (argument 5) are real at every column, and so is the scale `gamma / sqrt (var + eps)` that the reference
    program computes from argument 3 (`gamma`) and argument 6 (the running variance): `gamma` and `var` are
    real, `var` is non-negative and `eps` is a positive real. -/
theorem pre_real [Cert.Pre_finite_inputs.Facts]
    (a0 : FVec Ideal ⟨2, ![50000, 128]⟩ .f32) (a1 : IVec ⟨2, ![2, 800000]⟩ 32) (a2 : FVec Ideal ⟨2, ![128, 128]⟩ .f32)
    (a3 a4 a5 a6 : FVec Ideal ⟨1, ![128]⟩ .f32) (a7 a8 : FVec Ideal ⟨2, ![128, 128]⟩ .f32) (a9 : FVec Ideal ⟨2, ![40, 128]⟩ .f32)
    (h : Cert.Pre_finite_inputs.fn (F := Ideal) a0 a1 a2 a3 a4 a5 a6 a7 a8 a9 = fun _ => 1#1) :
    (∀ k : Fin 128, ∃ r : ℝ, a4 (ix1 k) = (r : EReal))
    ∧ (∀ k : Fin 128, ∃ r : ℝ, a5 (ix1 k) = (r : EReal))
    ∧ (∀ k : Fin 128, ∃ r : ℝ, Cert.ReferenceIdeal.Read.val_main_v23 (F := Ideal) a3 a6 (ix1 k) = (r : EReal)) := by
  -- the precondition at its one index, as the conjunction of its ten conjuncts
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨-, -⟩, h3⟩, h4⟩, h5⟩, h6⟩, -⟩, -⟩, -⟩, h6p⟩ := h0
  refine ⟨fun k => entries_real a4 _ _ _ h4 (ix1 k), fun k => entries_real a5 _ _ _ h5 (ix1 k), fun k => ?_⟩
  obtain ⟨g, hg⟩ := entries_real a3 _ _ _ h3 (ix1 k)
  obtain ⟨v, hv⟩ := entries_real a6 _ _ _ h6 (ix1 k)
  have hv0 : 0 ≤ a6 (ix1 k) := entries_nonneg a6 _ _ _ h6p (ix1 k)
  obtain ⟨e, he, hee⟩ := eps_pos_real
  rw [Cert.ReferenceIdeal.Read.val_main_v23_apply, Cert.ReferenceIdeal.Read.val_main_v22_apply,
    Cert.ReferenceIdeal.Read.val_main_v21_apply, Cert.ReferenceIdeal.Read.val_main_v20_apply,
    Cert.ReferenceIdeal.Read.val_main_cst_1_apply]
  simp only [Ideal.hostDivf_def, Ideal.hostUnary_sqrt_def, Ideal.addf_def, Ideal.ofBits_def]
  rw [hg, hee]
  rw [hv] at hv0 ⊢
  exact scale_real g v e (by exact_mod_cast hv0) he

end Cert.Gin

end
-- ==== Proof.Bridge.lean ====
/-
  The kernel program's result is the reference's result function of the launch arrays.

  First layer. What the first region leaves at `(p, q)` is the row function `y * scale + shift` of row `p` of the
  features plus their neighbour sums, with `shift = beta - mean * scale`; the reference's first layer at `(p, q)`
  is the row function `(y - mean) * scale + beta` of the same row. The precondition makes `beta`, `mean` and
  `scale = gamma / sqrt (var + eps)` real (the variance is non-negative and `eps` positive, so nothing is divided
  by zero), and for real `beta`, `mean`, `scale` the two arrangements agree at every extended real `y`.

  Second layer. Both programs add the neighbour sums of the first layer's output — the same function of the same
  array, now that the first layers agree — and apply the same row function; the kernel's second matrix is the
  reference's padded with zero columns, and only columns below 40 are kept.
-/
import proofs.«179697_j90056874262918_2_alg».proof.Proof.Region1
import proofs.«179697_j90056874262918_2_alg».proof.Proof.Host
import proofs.«179697_j90056874262918_2_alg».proof.Proof.RefLayers
import proofs.«179697_j90056874262918_2_alg».proof.Proof.PreFacts

set_option maxRecDepth 16384

noncomputable section

namespace Cert.Gin

open Idealize.ShloMosaic Idealize.ShloMosaic.ValueIdx

/-- The first layer's row function depends on its arguments only through their values. -/
theorem row1K_congr (h h' : Fin 128 → EReal) (wa wa' : Mat 128 128) (sc sc' sh sh' : Fin 128 → EReal) (wb wb' : Mat 128 128)
    (q : Fin 128) (eh : ∀ l, h l = h' l) (ewa : wa = wa') (esc : ∀ k, sc k = sc' k) (esh : ∀ k, sh k = sh' k) (ewb : wb = wb') :
    row1K h wa sc sh wb q = row1K h' wa' sc' sh' wb' q := by
  obtain rfl : h = h' := funext eh
  obtain rfl : sc = sc' := funext esc
  obtain rfl : sh = sh' := funext esh
  subst ewa ewb
  rfl

/-- The second layer's row function at a column `q' ` of a 128-column matrix whose column `q'` is column `q` of a
    40-column matrix is the row function over the 40-column matrix at `q`. -/
theorem row2_congr_pad (h h' : Fin 128 → EReal) (wa wa' : Mat 128 128) (wb' : Mat 128 128) (wb : Mat 128 40)
    (q : Fin 40) (q' : Fin 128) (eh : ∀ l, h l = h' l) (ewa : wa = wa')
    (ew : ∀ k : Fin 128, wb' (ix2 k q') = wb (ix2 k q)) :
    row2 h wa wb' q' = row2 h' wa' wb q := by
  obtain rfl : h = h' := funext eh
  subst ewa
  unfold row2
  exact congrArg (fun t => max t 0) (Finset.sum_congr rfl fun k _ => by rw [ew k])

end Cert.Gin

namespace Cert.KernelIdeal.GinBridge

open Idealize.ShloMosaic Idealize.ShloMosaic.TcCoe Idealize.ShloMosaic.ValueIdx
open Idealize.SL Idealize.SL.Sem
open Cert.KernelIdeal Cert.KernelIdeal.Gen Cert.KernelIdeal.GinValue Cert.KernelIdeal.GinHost Cert.Gin Cert.ReferenceIdeal.Read

variable (m : (ℓ : Loc nD τ sig) → Buf (Elt Ideal) ℓ) (ρ : Dev nD → PrngReg)

/-- THE FIRST LAYER: what the second region finds as the first layer's output is the reference's first layer. -/
theorem layer1_eq [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    (V4 m ρ c main_v28 : S50000x128.Idx → EReal)
      = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨hbeta, hmean, hscale⟩ := pre_real _ _ _ _ _ _ _ _ _ _ hpre
  rw [V4_v28, final0 (V1 m ρ) c]
  funext i
  obtain ⟨p, q, rfl⟩ : ∃ (p : Fin 50000) (q : Fin 128), i = ix2 p q := ⟨i 0, i 1, eq_ix2 i⟩
  rw [ref_layer1, row1R_eq_row1K _ _ _ _ _ _ hmean hscale hbeta]
  unfold G0
  exact row1K_congr _ _ _ _ _ _ _ _ _ _ q
    (fun l => congrArg₂ (fun x y : EReal => x + y) (congrFun (V1_arg0 m ρ c) (ix2 p l)) (congrFun (V1_v15 m ρ c) (ix2 p l)))
    (V1_v25 m ρ c) (fun k => V1_v20 m ρ c k) (fun k => V1_v23 m ρ c k) (V1_v27 m ρ c)

/-- THE RESULT: the fold's value at the result buffer is the reference's result function of the launch arrays. -/
theorem result_eq [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    (W6 m ρ c (Proc.devRef .tc main_v47) : S50000x40.Idx → EReal)
      = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e28 := layer1_eq m ρ c hpre
  have e40 : (V4 m ρ c main_v40 : S50000x128.Idx → EReal)
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
    rw [V4_v40 m ρ c, e28]
    rfl
  funext i
  obtain ⟨p, q, rfl⟩ : ∃ (p : Fin 50000) (q : Fin 40), i = ix2 p q := ⟨i 0, i 1, eq_ix2 i⟩
  rw [W6_v47 m ρ c p q, final1 (V4 m ρ) c, ref_layer2]
  unfold G1
  exact row2_congr_pad _ _ _ _ _ _ q (⟨q.val, by omega⟩ : Fin 128)
    (fun l => congrArg₂ (fun x y : EReal => x + y) (congrFun e28 (ix2 p l)) (congrFun e40 (ix2 p l)))
    (V4_v42 m ρ c) (fun k => V4_v45 m ρ c k q)

end Cert.KernelIdeal.GinBridge

end
-- ==== Proof.lean ====
/-
  A two-layer graph isomorphism network on 50000 nodes and 800000 edges: an implementation blocked over the rows
  against its whole-array reference, equal as functions on the extended reals.

  Each layer adds to every node's features the sum of its in-neighbours' features (a gather along the source
  indices and a scatter-add at the destination indices, left to the host in both programs) and applies a two-matrix
  perceptron with clamps at zero; the first layer normalises between its two matrices with running statistics.
  The kernel program runs each perceptron as a pipelined region over ten blocks of 5000 rows and pads the last
  matrix to 128 columns; a row of a layer's output depends only on the same row of its input, so each region's
  output array is one function of the whole arrays, and every host operation of the kernel program is the
  reference's operation at the same place (number-format changes are the identity on the extended reals).

  The one arithmetic difference: the reference normalises as `(y - mean) * s + beta` with
  `s = gamma / sqrt (var + eps)`, the kernel as `y * s + (beta - mean * s)`. These agree whenever `mean`, `s`,
  `beta` are real, for every extended real `y`; `s` is real because the inputs are finite and the variance is
  non-negative, which the precondition states (at `var + eps = 0` the reference itself divides by zero, and the two
  arrangements then differ: `1 * inf + 0` against `2 * inf + (0 - inf)`).

  The frames are the generated ones; the idealization rewrote nothing, so there is nothing to preserve.
-/
import proofs.«179697_j90056874262918_2_alg».proof.Defs
import proofs.«179697_j90056874262918_2_alg».proof.Proof.Gen.Kernel
import proofs.«179697_j90056874262918_2_alg».proof.Proof.Gen.Kernel.Skeleton
import proofs.«179697_j90056874262918_2_alg».proof.Proof.Gen.Kernel.Launch
import proofs.«179697_j90056874262918_2_alg».proof.Proof.Gen.Kernel.Points
import proofs.«179697_j90056874262918_2_alg».proof.Proof.Gen.Kernel.Frame
import proofs.«179697_j90056874262918_2_alg».proof.Proof.Gen.KernelIdeal
import proofs.«179697_j90056874262918_2_alg».proof.Proof.Gen.KernelIdeal.Skeleton
import proofs.«179697_j90056874262918_2_alg».proof.Proof.Gen.KernelIdeal.Launch
import proofs.«179697_j90056874262918_2_alg».proof.Proof.Gen.KernelIdeal.Points
import proofs.«179697_j90056874262918_2_alg».proof.Proof.Gen.KernelIdeal.Frame
import proofs.«179697_j90056874262918_2_alg».proof.Proof.Gen.ReferenceIdeal
import proofs.«179697_j90056874262918_2_alg».proof.Proof.Gen.ReferenceIdeal.Run
import proofs.«179697_j90056874262918_2_alg».proof.Proof.Gen.ReferenceIdeal.Read
import proofs.«179697_j90056874262918_2_alg».proof.Proof.Gen.Pre_finite_inputs
import Idealize.ShloMosaic.Adequacy
import Idealize.ShloMosaic.Init
import proofs.«179697_j90056874262918_2_alg».proof.Proof.KRun
import proofs.«179697_j90056874262918_2_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories agreeing on the arguments, with the result at the reference's result function of
    the kernel program's launch arrays. -/
theorem algebraic : Cert.algebraic_KernelIdeal_ReferenceIdeal := by
  intro m ρ m' ρ' hpre hagree
  refine ⟨fun c => Cert.KernelIdeal.Gen.W6 m ρ c (Proc.devRef .tc Cert.KernelIdeal.main_v47),
    Cert.KernelIdeal.GinRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  obtain ⟨a0, a1, a2, a3, a4, a5, a6, a7, a8, a9⟩ := hagree c
  rw [a0, a1, a2, a3, a4, a5, a6, a7, a8, a9]
  exact (Cert.KernelIdeal.GinBridge.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
